-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S8x512x512 : Shape := ⟨3, ![8, 512, 512]⟩
abbrev S8x512 : Shape := ⟨2, ![8, 512]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x512 : S_.BroadcastsInDim S8x512 (![] : Fin 0 → Fin S8x512.rank)
  reducesTo_S8x512_S_d0_1 : S8x512.ReducesTo [0, 1] S_

variable [Facts]

def fn {F : FTy → Type} [FloatOps F] (main_arg0 : FVec F S262144x512 .f32) (main_arg1 : FVec F S8x512x512 .f32) (main_arg2 : FVec F S8x512 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  main_v13
-- ==== Kernel.lean ====
abbrev S262144x512 : Shape := ⟨2, ![262144, 512]⟩
abbrev S8x512x512 : Shape := ⟨3, ![8, 512, 512]⟩
abbrev S8x512 : Shape := ⟨2, ![8, 512]⟩
abbrev S8x1x512 : Shape := ⟨3, ![8, 1, 512]⟩
abbrev S2048x512 : Shape := ⟨2, ![2048, 512]⟩
abbrev S1x512x512 : Shape := ⟨3, ![1, 512, 512]⟩
abbrev S1x1x512 : Shape := ⟨3, ![1, 1, 512]⟩
abbrev S512x512 : Shape := ⟨2, ![512, 512]⟩
abbrev S1x512 : Shape := ⟨2, ![1, 512]⟩

abbrev nBuf : Space → Nat
  | .hbm => 5
  | .vmem => 9
  | .smem => 0
  | _ => 0

abbrev bufTy : (tb : Table) → Fin (tcTables nBuf tb) → BufTy
  | .hbm, ⟨0, _⟩ => ⟨S262144x512, .f32⟩
  | .hbm, ⟨1, _⟩ => ⟨S8x512x512, .f32⟩
  | .hbm, ⟨2, _⟩ => ⟨S8x512, .f32⟩
  | .hbm, ⟨3, _⟩ => ⟨S8x1x512, .f32⟩
  | .hbm, ⟨4, _⟩ => ⟨S262144x512, .f32⟩
  | .local _ .vmem, ⟨0, _⟩ => ⟨S2048x512, .f32⟩
  | .local _ .vmem, ⟨1, _⟩ => ⟨S2048x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512, .f32⟩
  | .local _ .vmem, ⟨5, _⟩ => ⟨S1x1x512, .f32⟩
  | .local _ .vmem, ⟨6, _⟩ => ⟨S2048x512, .f32⟩
  | .local _ .vmem, ⟨7, _⟩ => ⟨S2048x512, .f32⟩
  | .local _ .vmem, ⟨8, _⟩ => ⟨S512x512, .bf16⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8x512_S8x1x512 : S8x512.ShapeCasts S8x1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S512x512_S512x512_0_0 : (Rect.unit (s := S512x512) ![0, 0] S512x512.size inb_S512x512_S512x512_0_0).PackedRows (EltTy.packing .bf16)
  inb_S2048x512_S2048x512_0_0 : ∀ a, (![0, 0] : Fin 2 → Nat) a + S2048x512.size a ≤ S2048x512.size a
  h_S2048x512 : 0 < S2048x512.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S262144x512.size a
  hwx0_0 : ∀ i : grid0.Coords, EltTy.bits .f32 = 32 ∨ (Rect.block (s := S262144x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x512.size a
  hwx0_2 : ∀ i : grid0.Coords, EltTy.bits .f32 = 32 ∨ (Rect.block (s := S8x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S262144x512.size a
  hwx0_3 : ∀ i : grid0.Coords, EltTy.bits .f32 = 32 ∨ (Rect.block (s := S262144x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S8x512x512 : Shape := ⟨3, ![8, 512, 512]⟩
abbrev S8x512 : Shape := ⟨2, ![8, 512]⟩
abbrev S8x32768x512 : Shape := ⟨3, ![8, 32768, 512]⟩
abbrev S8x1x512 : Shape := ⟨3, ![8, 1, 512]⟩

abbrev nBuf : Space → Nat
  | .hbm => 9
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S8x512x512, .f32⟩
  | .hbm, ⟨2, _⟩ => ⟨S8x512, .f32⟩
  | .hbm, ⟨3, _⟩ => ⟨S8x32768x512, .f32⟩
  | .hbm, ⟨4, _⟩ => ⟨S8x32768x512, .f32⟩
  | .hbm, ⟨5, _⟩ => ⟨S8x1x512, .f32⟩
  | .hbm, ⟨6, _⟩ => ⟨S8x32768x512, .f32⟩
  | .hbm, ⟨7, _⟩ => ⟨S8x32768x512, .f32⟩
  | .hbm, ⟨8, _⟩ => ⟨S262144x512, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  shapeCasts_S262144x512_S8x32768x512 : S262144x512.ShapeCasts S8x32768x512
  bcast_S8x512_S8x1x512_0_2 : S8x512.BroadcastsInDim S8x1x512 (![0, 2] : Fin 2 → Fin S8x1x512.rank)
  bcast_S8x1x512_S8x32768x512_0_1_2 : S8x1x512.BroadcastsInDim S8x32768x512 (![0, 1, 2] : Fin 3 → Fin S8x32768x512.rank)
  shapeCasts_S8x32768x512_S262144x512 : S8x32768x512.ShapeCasts S262144x512
  dot_S8x32768x512_S8x512x512_S8x32768x512_2_1_1_2_0_0_wf : DotDims.WF S8x32768x512 S8x512x512 S8x32768x512 [2] [1] [1] [2] [0] [0]

variable [Facts₀]

def dot_S8x32768x512_S8x512x512_S8x32768x512_2_1_1_2_0_0 : DotDims S8x32768x512 S8x512x512 S8x32768x512 where
  lhsContracting := [2]
  rhsContracting := [1]
  lhsNonContracting := [1]
  rhsNonContracting := [2]
  lhsBatch := [0]
  rhsBatch := [0]
  wf := dot_S8x32768x512_S8x512x512_S8x32768x512_2_1_1_2_0_0_wf

class Facts : Prop extends Facts₀ where

variable [Facts]
-- ==== Proof.GroupedAffine.lean ====
/-
  The function both programs compute. The 262144 rows of `x` fall into eight equal contiguous groups of 32768
  rows: row `R` belongs to group `R / 32768`. The result at `(R, n)` is the inner product of row `R` of `x` with
  column `n` of that group's 512 × 512 weight matrix, plus that group's bias at `n`:

      result (R, n) = (∑ k < 512, x (R, k) · w (R / 32768, k, n)) + bias (R / 32768, n)

  over the extended reals. No law beyond the definition is needed: both programs form exactly this sum, in this
  order of `k`, one row block at a time or all rows at once.
-/
import Idealize.ShloMosaic.PureOps.Ideal
import Idealize.ShloMosaic.Lib.ValueIdx

noncomputable section

namespace Cert.GroupedAffine

open Idealize.ShloMosaic Idealize.ShloMosaic.ValueIdx

/-- The group a row belongs to: the groups are the eight consecutive stretches of 32768 rows. -/
def groupOf (R : Fin 262144) : Fin 8 := ⟨R.val / 32768, by have := R.isLt; omega⟩

theorem groupOf_val (R : Fin 262144) : (groupOf R).val = R.val / 32768 := rfl

/-- The result at row `R`, column `n`: row `R` of `x` against column `n` of its group's weights, plus its group's bias. -/
def entry (x : FVec Ideal ⟨2, ![262144, 512]⟩ .f32) (w : FVec Ideal ⟨3, ![8, 512, 512]⟩ .f32)
    (b : FVec Ideal ⟨2, ![8, 512]⟩ .f32) (R : Fin 262144) (n : Fin 512) : EReal :=
  (∑ k : Fin 512, x (ix2 R k) * w (ix3 (groupOf R) k n)) + b (ix2 (groupOf R) n)

/-- The whole result array, index by index. -/
def result (x : FVec Ideal ⟨2, ![262144, 512]⟩ .f32) (w : FVec Ideal ⟨3, ![8, 512, 512]⟩ .f32)
    (b : FVec Ideal ⟨2, ![8, 512]⟩ .f32) : FVec Ideal ⟨2, ![262144, 512]⟩ .f32 :=
  fun i => entry x w b ⟨(i 0).val, idx2_lt0 i⟩ ⟨(i 1).val, idx2_lt1 i⟩

theorem result_apply (x : FVec Ideal ⟨2, ![262144, 512]⟩ .f32) (w : FVec Ideal ⟨3, ![8, 512, 512]⟩ .f32)
    (b : FVec Ideal ⟨2, ![8, 512]⟩ .f32) (R : Fin 262144) (n : Fin 512) :
    result x w b (ix2 R n) = entry x w b R n := rfl

end Cert.GroupedAffine

end
-- ==== Proof.ReferenceRows.lean ====
/-
  The reference computes the grouped product all rows at once: it regroups the rows of `x` as 8 × 32768, multiplies
  group by group, adds each group's bias along its rows, and flattens back. Flattened row `R` is row `R % 32768` of
  group `R / 32768`, so the entry at `(R, n)` is row `R` of `x` against column `n` of group `R / 32768`'s weights
  plus that group's bias at `n`: the specification, index by index. The only work is the row-major arithmetic of
  the two regroupings.
-/
import proofs.«114444_j20624432955428_2_alg».proof.Proof.Gen.ReferenceIdeal.Read
import proofs.«114444_j20624432955428_2_alg».proof.Proof.GroupedAffine

noncomputable section

namespace Cert.ReferenceIdeal.Rows

open Cert.ReferenceIdeal Cert.ReferenceIdeal.Read Idealize.ShloMosaic Idealize.ShloMosaic.ValueIdx Cert.GroupedAffine

/-- Regrouped and flattened back, the left factor of the `k`-th product at `(R, n)` is `x (R, k)`. -/
theorem left_index (R : Fin 262144) (n k : Fin 512) :
    idx_main_v0 (lidx_main_v1 (idx_main_v5 (ix2 R n)) k) = ix2 R k := by
  have hR := R.isLt; have hn := n.isLt; have hk := k.isLt
  funext ax; apply Fin.ext
  match ax with
  | ⟨0, _⟩ =>
    show (((R.val * 512 + n.val) / 16777216 * 32768 + (R.val * 512 + n.val) / 512 % 32768) * 512 + k.val) / 512 = R.val
    omega
  | ⟨1, _⟩ =>
    show (((R.val * 512 + n.val) / 16777216 * 32768 + (R.val * 512 + n.val) / 512 % 32768) * 512 + k.val) % 512 = k.val
    omega

/-- The right factor is the weight of group `R / 32768` at `(k, n)`. -/
theorem right_index (R : Fin 262144) (n k : Fin 512) :
    ridx_main_v1 (idx_main_v5 (ix2 R n)) k = ix3 (groupOf R) k n := by
  have hR := R.isLt; have hn := n.isLt; have hk := k.isLt
  funext ax; apply Fin.ext
  match ax with
  | ⟨0, _⟩ => show (R.val * 512 + n.val) / 16777216 = R.val / 32768; omega
  | ⟨1, _⟩ => rfl
  | ⟨2, _⟩ => show (R.val * 512 + n.val) % 512 = n.val; omega

/-- The bias added at `(R, n)` is group `R / 32768`'s at `n`. -/
theorem bias_index (R : Fin 262144) (n : Fin 512) :
    idx_main_v2 (idx_main_v3 (idx_main_v5 (ix2 R n))) = ix2 (groupOf R) n := by
  have hR := R.isLt; have hn := n.isLt
  funext ax; apply Fin.ext
  match ax with
  | ⟨0, _⟩ => show (R.val * 512 + n.val) / 16777216 = R.val / 32768; omega
  | ⟨1, _⟩ => show (R.val * 512 + n.val) % 512 = n.val; omega

/-- The reference's result is the specification of its three arguments. -/
theorem reference_eq (x : (⟨S262144x512, .f32⟩ : BufTy).Contents (Elt Ideal)) (w : (⟨S8x512x512, .f32⟩ : BufTy).Contents (Elt Ideal))
    (b : (⟨S8x512, .f32⟩ : BufTy).Contents (Elt Ideal)) :
    val_main_v5 (F := Ideal) x w b = result x w b := by
  funext i
  obtain ⟨R, n, rfl⟩ : ∃ (R : Fin 262144) (n : Fin 512), i = ix2 R n := ⟨i 0, i 1, eq_ix2 i⟩
  rw [val_main_v5_apply, val_main_v4_apply, val_main_v1_apply, val_main_v3_apply, val_main_v2_apply, result_apply]
  simp only [val_main_v0_apply, left_index, right_index, bias_index]
  rfl

end Cert.ReferenceIdeal.Rows

end
-- ==== Proof.Pieces.lean ====
/-
  What one run of the body leaves behind, as values. A grid point is the first of its group (its position along
  the row-tile axis is 0) or not. At a first point the body overwrites its kept matrix with the copy of the group's
  weight block, reads it back, and writes the row block's product with it plus the bias row; at any other point it
  leaves the kept matrix as it found it and writes the row block's product with THAT plus the bias row. Each buffer
  is written by one store that covers it, so what it holds afterwards is that store's value.
-/
import proofs.«114444_j20624432955428_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- At a group's first point the kept matrix ends as the copy of the weight block `x1`. -/
theorem kept_first (c : Dev nD) (i : grid0.Coords) (a2 : Memref sig .tc .vmem S2048x512 .f32) (h2 : a2.IsWhole)
    (a3 : Memref sig .tc .vmem S1x512x512 .f32) (h3 : a3.IsWhole) (a4 : Memref sig .tc .vmem S1x1x512 .f32) (h4 : a4.IsWhole)
    (a5 : Memref sig .tc .vmem S2048x512 .f32) (h5 : a5.IsWhole) (a6 : Memref sig .tc .vmem S512x512 .bf16) (h6 : a6.IsWhole) (hc : cond0_0 i)
    (x0 : Vec F S2048x512 .f32) (x1 : Vec F S1x512x512 .f32) (x2 : Vec F S1x1x512 .f32) :
    sout0_A_0 c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero origin2]
  simp only [View.readAt_eq_ld, h3.read_unread, View.ld_unit_zero (S := S1x512x512) origin3]

/-- At a group's first point the output block ends as the row block `x0` against that copy, plus the bias row `x2`. -/
theorem rows_first (c : Dev nD) (i : grid0.Coords) (a2 : Memref sig .tc .vmem S2048x512 .f32) (h2 : a2.IsWhole)
    (a3 : Memref sig .tc .vmem S1x512x512 .f32) (h3 : a3.IsWhole) (a4 : Memref sig .tc .vmem S1x1x512 .f32) (h4 : a4.IsWhole)
    (a5 : Memref sig .tc .vmem S2048x512 .f32) (h5 : a5.IsWhole) (a6 : Memref sig .tc .vmem S512x512 .bf16) (h6 : a6.IsWhole) (hc : cond0_0 i)
    (x0 : Vec F S2048x512 .f32) (x1 : Vec F S1x512x512 .f32) (x2 : Vec F S1x1x512 .f32) :
    out0_A_3 c i a2 h2 a3 h3 a4 h4 a5 h5 a6 h6 hc x0 x1 x2 = k0_pay2 x0 x2 (k0_pay1 x1) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero origin2, View.readCov_unit_zero (S := S512x512) _ origin2]
  simp only [View.readAt_eq_ld, h2.read_unread, h3.read_unread, h4.read_unread, View.ld_unit_zero (S := S2048x512) origin2,
    View.ld_unit_zero (S := S1x512x512) origin3, View.ld_unit_zero (S := S1x1x512) origin3]

/-- At any other point the output block ends as the row block `x0` against the kept matrix `xs` as found, plus the
    bias row `x2`. -/
theorem rows_later (c : Dev nD) (i : grid0.Coords) (a2 : Memref sig .tc .vmem S2048x512 .f32) (h2 : a2.IsWhole)
    (a3 : Memref sig .tc .vmem S1x512x512 .f32) (h3 : a3.IsWhole) (a4 : Memref sig .tc .vmem S1x1x512 .f32) (h4 : a4.IsWhole)
    (a5 : Memref sig .tc .vmem S2048x512 .f32) (h5 : a5.IsWhole) (a6 : Memref sig .tc .vmem S512x512 .bf16) (h6 : a6.IsWhole) (hc : ¬cond0_0 i)
    (x0 : Vec F S2048x512 .f32) (x1 : Vec F S1x512x512 .f32) (x2 : Vec F S1x1x512 .f32) (xs : Vec F S512x512 .bf16) :
    out0_B_3 c i a2 h2 a3 h3 a4 h4 a5 h5 a6 h6 hc x0 x1 x2 xs = k0_pay2 x0 x2 xs := by
  unfold out0_B_3
  rw [View.read_writes_eq_canon _ _ _ (cover0_B_3 c i a2 h2 a3 h3 a4 h4 a5 h5 a6 h6 hc x0 x1 x2 xs)]
  unfold kernelRun0_B
  dsimp only
  sl_unfold_words
  rw [View.canon_unit_zero origin2]
  simp only [View.readAt_eq_ld, h2.read_unread, h4.read_unread, h6.read_unread, View.ld_unit_zero (S := S2048x512) origin2,
    View.ld_unit_zero (S := S1x1x512) origin3, View.ld_unit_zero (S := S512x512) origin2]

end Cert.KernelIdeal.Pieces

end
-- ==== Proof.TileProduct.lean ====
/-
  The arithmetic of one grid point, read at an index. The body keeps a copy of its group's 512 × 512 weight
  matrix (the weight block with its leading unit axis dropped; rounding to a narrower float format is the identity
  on the extended reals), and writes, for its 2048 rows, the product of the row block with that copy plus the bias
  row: at `(r, n)` the sum over `k` of `rows (r, k) · copy (k, n)`, plus `bias (0, 0, n)`.
-/
import proofs.«114444_j20624432955428_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The contraction of a 2048 × 512 row block with a 512 × 512 matrix: rows by columns, one summed axis. -/
abbrev tileDot : DotDims S2048x512 S512x512 S2048x512 := dot_S2048x512_S512x512_S2048x512_1_0_0_1_n_n

/-- The left operand is read at the output's row … -/
theorem lhs_row (i : S2048x512.Idx) (q : tileDot.contr.Idx) : (tileDot.lhsIdx i q 0).val = (i 0).val := by
  unfold DotDims.lhsIdx
  rw [dif_neg (show ¬(0 : Fin S2048x512.rank) ∈ tileDot.lhsBatch by decide),
    dif_pos (show (0 : Fin S2048x512.rank) ∈ tileDot.lhsNonContracting by decide)]
  rfl
/-- … and the summed position; -/
theorem lhs_col (i : S2048x512.Idx) (q : tileDot.contr.Idx) : (tileDot.lhsIdx i q 1).val = (q ⟨0, by decide⟩).val :=
  tileDot.lhsIdx_val_of_single rfl i q
/-- the right operand at the summed position … -/
theorem rhs_row (i : S2048x512.Idx) (q : tileDot.contr.Idx) : (tileDot.rhsIdx i q 0).val = (q ⟨0, by decide⟩).val :=
  tileDot.rhsIdx_val_of_single rfl i q
/-- … and the output's column. -/
theorem rhs_col (i : S2048x512.Idx) (q : tileDot.contr.Idx) : (tileDot.rhsIdx i q 1).val = (i 1).val := by
  unfold DotDims.rhsIdx
  rw [dif_neg (show ¬(1 : Fin S512x512.rank) ∈ tileDot.rhsBatch by decide),
    dif_pos (show (1 : Fin S512x512.rank) ∈ tileDot.rhsNonContracting by decide)]
  rfl

/-- The product of a row block with a matrix into a zero accumulator, at `(r, n)`: the sum over `k` of
    `a (r, k) · b (k, n)`. -/
theorem product_apply (a : FVec Ideal S2048x512 .bf16) (b : FVec Ideal S512x512 .bf16) (r : Fin 2048) (n : Fin 512) :
    FloatOps.matmul tileDot none a b (constant (F := Ideal) S2048x512 .f32 0x00000000#32) (ix2 r n)
      = ∑ k : Fin 512, a (ix2 r k) * b (ix2 k n) := by
  rw [Ideal.matmul_constant_zero_apply, ← Equiv.sum_comp (contrEquiv1 tileDot 512 rfl rfl).symm]
  refine Finset.sum_congr rfl fun k _ => ?_
  have hk := contrEquiv1_symm_val tileDot 512 rfl rfl k
  have el : tileDot.lhsIdx (ix2 r n) ((contrEquiv1 tileDot 512 rfl rfl).symm k) = ix2 r k := funext fun ax => Fin.ext (by
    match ax with
    | ⟨0, _⟩ => exact lhs_row _ _
    | ⟨1, _⟩ => exact (lhs_col _ _).trans hk)
  have er : tileDot.rhsIdx (ix2 r n) ((contrEquiv1 tileDot 512 rfl rfl).symm k) = ix2 k n := funext fun ax => Fin.ext (by
    match ax with
    | ⟨0, _⟩ => exact (rhs_row _ _).trans hk
    | ⟨1, _⟩ => exact rhs_col _ _)
  rw [el, er]

/-- The copy of the weights the body keeps, at `(k, n)`: the weight block at `(0, k, n)`. -/
theorem copy_apply (v12 : Vec Ideal S1x512x512 .f32) (k n : Fin 512) :
    k0_pay1 (F := Ideal) v12 (ix2 k n) = v12 (ix3 (0 : Fin 1) k n) := by
  show shapeCast S512x512 (truncf (F := Ideal) .bf16 (shapeCast S512x512 v12 shapeCasts_S1x512x512_S512x512) bitsLt_bf16_f32)
    shapeCasts_S512x512_S512x512 (ix2 k n) = _
  rw [shapeCast_self]
  exact shapeCast_1ab_ab_apply v12 shapeCasts_S1x512x512_S512x512 k n

/-- What the body writes for its rows, at `(r, n)`: the row block against the kept matrix, plus the bias row. -/
theorem tile_apply (v3 : Vec Ideal S2048x512 .f32) (v5 : Vec Ideal S1x1x512 .f32) (v7 : Vec Ideal S512x512 .bf16)
    (r : Fin 2048) (n : Fin 512) :
    k0_pay2 (F := Ideal) v3 v5 v7 (ix2 r n)
      = (∑ k : Fin 512, v3 (ix2 r k) * v7 (ix2 k n)) + v5 (ix3 (0 : Fin 1) (0 : Fin 1) n) := by
  show FloatOps.matmul tileDot none (truncf (F := Ideal) .bf16 v3 bitsLt_bf16_f32) v7 (constant (F := Ideal) S2048x512 .f32 0x00000000#32) (ix2 r n)
      + broadcastTo S2048x512 (shapeCast S1x512 v5 shapeCasts_S1x1x512_S1x512) broadcasts_S1x512_S2048x512 (ix2 r n) = _
  rw [product_apply, broadcastTo_1b_ab_apply, shapeCast_1ab_ab_apply]
  rfl

end Cert.KernelIdeal.Tile

end
-- ==== Proof.GroupRows.lean ====
/-
  The kernel's result array, read off its run. The grid has 128 points, point `t` = (group `t / 16`, row tile
  `t % 16`); it owns rows `2048·t … 2048·t + 2047`, all of group `t / 16`.

  * The matrix the body keeps between points: after point `t` it is the weight matrix of group `t / 16`. A group's
    first point (`t % 16 = 0`) stores it; the fifteen points after it leave it alone, and `(t − 1) / 16 = t / 16` for
    them. By induction on the point.
  * So what point `t` writes back, at `(r, n)`, is row `2048·t + r` of `x` against column `n` of group `t / 16`'s
    weights plus that group's bias (the bias reaches the kernel regrouped as 8 × 1 × 512, same row-major order):
    the specification at row `2048·t + r`, whose group `(2048·t + r) / 32768` is `t / 16`.
  * Row `R` lies in the block of point `R / 2048`, so the blocks cover the array and the array ends as the
    specification of the three arguments.
-/
import proofs.«114444_j20624432955428_2_alg».proof.Proof.Gen.KernelIdeal.Value
import proofs.«114444_j20624432955428_2_alg».proof.Proof.Pieces
import proofs.«114444_j20624432955428_2_alg».proof.Proof.TileProduct
import proofs.«114444_j20624432955428_2_alg».proof.Proof.GroupedAffine
import Idealize.ShloMosaic.Lib.Pipeline.Value
import Idealize.ShloMosaic.Lib.StableHlo.Run
import Idealize.ShloMosaic.Lib.ValueIdx

noncomputable section

namespace Cert.KernelIdeal.Rows

open Cert.KernelIdeal Cert.KernelIdeal.Gen Idealize.ShloMosaic Idealize.ShloMosaic.TcCoe Idealize.SL.Sem
open Idealize.ShloMosaic.ValueIdx Cert.GroupedAffine
open Idealize.ShloMosaic.Pipeline (Dat)

/-! ## The grid: which rows and which group a point owns -/

theorem points : cfg0.N = 128 := N_0

/-- Row `r` of point `t`'s block is row `2048·t + r` of the array. -/
def rowAt (t : Fin cfg0.N) (r : Fin 2048) : Fin 262144 :=
  ⟨t.val * 2048 + r.val, by have := lt_of_lt_of_eq t.isLt points; have := r.isLt; omega⟩

/-- Point `t` works for group `t / 16`. -/
def groupAt (t : Fin cfg0.N) : Fin 8 := ⟨t.val / 16, by have := lt_of_lt_of_eq t.isLt points; omega⟩

/-- Every row of point `t`'s block belongs to group `t / 16`. -/
theorem group_of_row (t : Fin cfg0.N) (r : Fin 2048) : groupOf (rowAt t r) = groupAt t :=
  Fin.ext (by show (t.val * 2048 + r.val) / 32768 = t.val / 16; have := r.isLt; omega)

/-- The printed block-index maps, decided over the 128 points: the row windows (input `x` and the output) move one
    block per point, the weight and bias windows one block per group. -/
theorem block_indices : ∀ t : Fin cfg0.N,
    win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The output block of point `t` sits at rows `2048·t …`, all 512 columns. -/
theorem out_emb (t : Fin cfg0.N) (r : Fin 2048) (n : Fin 512) :
    ((cfg0.win 3).blk t).view.emb (ix2 r n) = ix2 (rowAt t r) n := by
  obtain ⟨-, -, -, -, -, -, -, -, e0, e1⟩ := block_indices t
  funext ax; apply Fin.ext
  match ax with
  | ⟨0, _⟩ => show win0_3.index t (0 : Fin 2) * 2048 + 1 * r.val = t.val * 2048 + r.val; rw [e0]; omega
  | ⟨1, _⟩ => show win0_3.index t (1 : Fin 2) * 512 + 1 * n.val = n.val; rw [e1]; omega

section AnyValues

variable {F : FTy → Type} [FloatOps F]
variable (m : (ℓ : Loc nD τ sig) → Buf (Elt F) ℓ)

/-! ## What a point leaves, over its input blocks -/

/-- A group's first point leaves the product over the fresh copy in the output block, and the copy as the kept matrix. -/
theorem point_first (c : Dev nD) (t : Fin cfg0.N) (h0 : t.val % 16 = 0) :
    outsAt0 m c t.val t.isLt
      = (k0_pay2 (iblk m c 0 t) (iblk m c 2 t) (k0_pay1 (iblk m c 1 t)), k0_pay1 (iblk m c 1 t)) := by
  rw [outsAt0_A m c t h0, Pieces.rows_first, Pieces.kept_first]

/-- Any other point leaves the product over the kept matrix as the point before left it, and keeps that matrix. -/
theorem point_later (c : Dev nD) (t : Fin cfg0.N) (h0 : ¬t.val % 16 = 0) :
    outsAt0 m c t.val t.isLt
      = (k0_pay2 (iblk m c 0 t) (iblk m c 2 t) (outsAt0 m c (t.val - 1) (Nat.lt_of_le_of_lt (Nat.sub_le _ _) t.isLt)).2,
          (outsAt0 m c (t.val - 1) (Nat.lt_of_le_of_lt (Nat.sub_le _ _) t.isLt)).2) := by
  rw [outsAt0_B m c t h0, Pieces.rows_later]
  rfl

/-- Either way, the output block after point `t` is the product of its row block with the kept matrix AS IT STANDS
    AFTER point `t`, plus the bias row. -/
theorem rows_over_kept (c : Dev nD) (t : Fin cfg0.N) :
    (outsAt0 m c t.val t.isLt).1 = k0_pay2 (iblk m c 0 t) (iblk m c 2 t) (outsAt0 m c t.val t.isLt).2 := by
  by_cases h0 : t.val % 16 = 0
  · have e := point_first m c t h0
    exact (congrArg Prod.fst e).trans (congrArg (k0_pay2 (iblk m c 0 t) (iblk m c 2 t)) (congrArg Prod.snd e).symm)
  · have e := point_later m c t h0
    exact (congrArg Prod.fst e).trans (congrArg (k0_pay2 (iblk m c 0 t) (iblk m c 2 t)) (congrArg Prod.snd e).symm)

/-! ## The input blocks, read off the arrays -/

/-- Point `t`'s block of `x`: rows `2048·t …`. -/
theorem rows_block (c : Dev nD) (t : Fin cfg0.N) (r : Fin 2048) (k : Fin 512) :
    (iblk m c 0 t : Vec F S2048x512 .f32) (ix2 r k) = V m c main_arg0 (ix2 (rowAt t r) k) := by
  obtain ⟨e0, e1, -⟩ := block_indices t
  show V m c main_arg0 (((cfg0.win 0).blk t).view.emb (ix2 r k)) = _
  refine congrArg (V m c main_arg0) (funext fun ax => Fin.ext ?_)
  match ax with
  | ⟨0, _⟩ => show win0_0.index t (0 : Fin 2) * 2048 + 1 * r.val = t.val * 2048 + r.val; rw [e0]; omega
  | ⟨1, _⟩ => show win0_0.index t (1 : Fin 2) * 512 + 1 * k.val = k.val; rw [e1]; omega

/-- Point `t`'s block of the weights: the matrix of group `t / 16`. -/
theorem weights_block (c : Dev nD) (t : Fin cfg0.N) (k j : Fin 512) :
    (iblk m c 1 t : Vec F S1x512x512 .f32) (ix3 (0 : Fin 1) k j) = V m c main_arg1 (ix3 (groupAt t) k j) := by
  obtain ⟨-, -, e0, e1, e2, -⟩ := block_indices t
  show V m c main_arg1 (((cfg0.win 1).blk t).view.emb (ix3 (0 : Fin 1) k j)) = _
  refine congrArg (V m c main_arg1) (funext fun ax => Fin.ext ?_)
  match ax with
  | ⟨0, _⟩ => show win0_1.index t (0 : Fin 3) * 1 + 1 * 0 = t.val / 16; rw [e0]; omega
  | ⟨1, _⟩ => show win0_1.index t (1 : Fin 3) * 512 + 1 * k.val = k.val; rw [e1]; omega
  | ⟨2, _⟩ => show win0_1.index t (2 : Fin 3) * 512 + 1 * j.val = j.val; rw [e2]; omega

/-- Point `t`'s block of the regrouped bias: the row of group `t / 16`. -/
theorem bias_block (c : Dev nD) (t : Fin cfg0.N) (j : Fin 512) :
    (iblk m c 2 t : Vec F S1x1x512 .f32) (ix3 (0 : Fin 1) (0 : Fin 1) j) = V m c main_v0 (ix3 (groupAt t) (0 : Fin 1) j) := by
  obtain ⟨-, -, -, -, -, e0, e1, e2, -⟩ := block_indices t
  show V m c main_v0 (((cfg0.win 2).blk t).view.emb (ix3 (0 : Fin 1) (0 : Fin 1) j)) = _
  refine congrArg (V m c main_v0) (funext fun ax => Fin.ext ?_)
  match ax with
  | ⟨0, _⟩ => show win0_2.index t (0 : Fin 3) * 1 + 1 * 0 = t.val / 16; rw [e0]; omega
  | ⟨1, _⟩ => show win0_2.index t (1 : Fin 3) * 1 + 1 * 0 = 0; rw [e1]
  | ⟨2, _⟩ => show win0_2.index t (2 : Fin 3) * 512 + 1 * j.val = j.val; rw [e2]; omega

/-- The bias reaches the region regrouped as 8 × 1 × 512 in the same row-major order: its `(g, 0, j)` is the bias
    argument's `(g, j)`. -/
theorem regrouped_bias (c : Dev nD) (g : Fin 8) (j : Fin 512) :
    V m c main_v0 (ix3 g (0 : Fin 1) j) = m ((c : Thread nD τ).loc main_arg2) (ix2 g j) := by
  have e : (V m c main_v0 : S8x1x512.Idx → Elt F .f32)
      = shapeCast S8x1x512 (m ((c : Thread nD τ).loc main_arg2)) shapeCasts_S8x512_S8x1x512 := by
    dsimp only [Gen.V, Gen.hostOps0]; after_results; rfl
  rw [e]
  exact shapeCast_apply _ shapeCasts_S8x512_S8x1x512 (ix3 g (0 : Fin 1) j) (ix2 g j) (by
    rw [Shape.rowMajor_val_two, Shape.rowMajor_val_three]
    show g.val * 512 + j.val = (g.val * 1 + 0) * 512 + j.val
    omega)

end AnyValues

section ExtendedReals

variable (m : (ℓ : Loc nD τ sig) → Buf (Elt Ideal) ℓ) (ρ : Dev nD → PrngReg)

/-! ## The kept matrix is the group's weight matrix -/

/-- After a group's first point. -/
theorem kept_entry_first (c : Dev nD) (t : Fin cfg0.N) (h0 : t.val % 16 = 0) (k j : Fin 512) :
    (outsAt0 m c t.val t.isLt).2 (ix2 k j) = V m c main_arg1 (ix3 (groupAt t) k j) :=
  (congrFun (congrArg Prod.snd (point_first m c t h0)) (ix2 k j)).trans
    ((Tile.copy_apply (iblk m c 1 t) k j).trans (weights_block m c t k j))

/-- After every point, by induction: a later point of a group keeps what the point before left, and is of the same group. -/
theorem kept_entry (c : Dev nD) : ∀ (n : ℕ) (h : n < cfg0.N) (k j : Fin 512),
    (outsAt0 m c n h).2 (ix2 k j) = V m c main_arg1 (ix3 (groupAt ⟨n, h⟩) k j) := by
  intro n
  induction n with
  | zero => intro h k j; exact kept_entry_first m c ⟨0, h⟩ rfl k j
  | succ n ih =>
    intro h k j
    by_cases h0 : (n + 1) % 16 = 0
    · exact kept_entry_first m c ⟨n + 1, h⟩ h0 k j
    · have e := congrArg Prod.snd (point_later m c ⟨n + 1, h⟩ h0)
      have hg : groupAt ⟨n + 1, h⟩ = groupAt ⟨n, Nat.lt_of_succ_lt h⟩ :=
        Fin.ext (by show (n + 1) / 16 = n / 16; omega)
      rw [hg]
      exact (congrFun e (ix2 k j)).trans (ih (Nat.lt_of_succ_lt h) k j)

/-! ## What a point writes back is its rows of the specification -/

theorem rows_entry (c : Dev nD) (t : Fin cfg0.N) (r : Fin 2048) (n : Fin 512) :
    (outsAt0 m c t.val t.isLt).1 (ix2 r n) = entry (m ((c : Thread nD τ).loc main_arg0)) (m ((c : Thread nD τ).loc main_arg1)) (m ((c : Thread nD τ).loc main_arg2)) (rowAt t r) n := by
  refine (congrFun (rows_over_kept m c t) (ix2 r n)).trans ?_
  refine (Tile.tile_apply (iblk m c 0 t) (iblk m c 2 t) (outsAt0 m c t.val t.isLt).2 r n).trans ?_
  unfold entry
  rw [group_of_row t r]
  refine congrArg₂ (· + ·) (Finset.sum_congr rfl fun k _ => ?_) ?_
  · rw [rows_block m c t r k, kept_entry m c t.val t.isLt k n, V_main_arg0, V_main_arg1]
  · rw [bias_block m c t n, regrouped_bias m c (groupAt t) n]

/-- What point `t` writes back is block `t` of the specification of the three arguments. -/
theorem flushed_eq (c : Dev nD) (t : Fin cfg0.N) :
    (dats m 0 c).flushed 3 t
      = ((cfg0.win 3).blk t).view.read (Elt Ideal) (result (m ((c : Thread nD τ).loc main_arg0)) (m ((c : Thread nD τ).loc main_arg1)) (m ((c : Thread nD τ).loc main_arg2))) := by
  rw [Value.flushed3]
  funext y
  obtain ⟨r, n, rfl⟩ : ∃ (r : Fin 2048) (n : Fin 512), y = ix2 r n := ⟨y 0, y 1, eq_ix2 (n0 := 2048) (n1 := 512) y⟩
  show (outsAt0 m c t.val t.isLt).1 (ix2 r n)
    = result (m ((c : Thread nD τ).loc main_arg0)) (m ((c : Thread nD τ).loc main_arg1)) (m ((c : Thread nD τ).loc main_arg2)) (((cfg0.win 3).blk t).view.emb (ix2 r n))
  rw [out_emb t r n, result_apply]
  exact rows_entry m c t r n

/-! ## The blocks cover the array -/

/-- An index of the array is in point `t`'s block iff each coordinate is in the block's range on its axis. -/
theorem mem_block (t : Fin cfg0.N) (i : S262144x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v1).slice (win0_3.rect t)).set ↔ _
  rw [View.set_slice_whole, Rect.mem_set_unit]
  exact Iff.rfl

/-- Row `R` lies in the block of point `R / 2048`. -/
theorem covered (i : S262144x512.Idx) :
    ∃ t : Fin cfg0.N, (cfg0.win 3).flush t = true ∧ i ∈ ((cfg0.win 3).blk t).view.set := by
  have hi0 : (i 0).val < 262144 := (i 0).isLt
  have hi1 : (i 1).val < 512 := (i 1).isLt
  have hlt : (i 0).val / 2048 < cfg0.N := by rw [points]; omega
  obtain ⟨-, -, -, -, -, -, -, -, e0, e1⟩ := block_indices ⟨(i 0).val / 2048, hlt⟩
  have e0' : win0_3.index ⟨(i 0).val / 2048, hlt⟩ (0 : Fin 2) = (i 0).val / 2048 := e0
  refine ⟨⟨(i 0).val / 2048, hlt⟩, flush0_3 _, ?_⟩
  rw [mem_block]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    rw [e0']; omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    rw [e1]; omega

/-- So the result array ends as the specification of the three arguments. -/
theorem final (c : Dev nD) :
    (dats m 0 c).arrAt 3 cfg0.N = result (m ((c : Thread nD τ).loc main_arg0)) (m ((c : Thread nD τ).loc main_arg1)) (m ((c : Thread nD τ).loc main_arg2)) :=
  (dats m 0 c).arrAt_eq_of_cover 3 (result (m ((c : Thread nD τ).loc main_arg0)) (m ((c : Thread nD τ).loc main_arg1)) (m ((c : Thread nD τ).loc main_arg2))) (fun t _ => flushed_eq m c t) covered

/-- The kernel's run: the result array at the specification of the arguments, the arguments unchanged. -/
theorem run : θ_run defs (onTc (τ := τ) (main (F := Ideal))) ⟨m, fun _ => 0, ρ⟩ fun r => ∀ c : Dev nD,
      r.2.mem ((c : Thread nD τ).loc main_v1) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end ExtendedReals

end Cert.KernelIdeal.Rows

end
-- ==== Proof.lean ====
/-
  A grouped matrix product. The 262144 rows of `x` fall into eight contiguous groups of 32768 rows; each group has
  its own 512 × 512 weight matrix and its own bias row. Both programs compute, over the extended reals,

      out (R, n) = (∑ k < 512, x (R, k) · w (R / 32768, k, n)) + bias (R / 32768, n).

  The kernel walks a grid of 8 × 16 points, 2048 rows per point, and keeps a copy of the current group's weight
  matrix from the group's first point to its last; the narrower float format it keeps that copy in, and feeds the
  rows through, is the identity on the extended reals. The reference regroups the rows as 8 × 32768, multiplies group
  by group, adds the bias along the rows and flattens back. The two are the same sums of the same products in the same
  order of `k`, so nothing about finiteness of the inputs is used: the equality is row-major index arithmetic on both
  sides (Proof/GroupRows.lean for the kernel, Proof/ReferenceRows.lean for the reference, both against
  Proof/GroupedAffine.lean).

  The kernel's text is printed unchanged by the idealization, so there is nothing to preserve beyond `True`.
-/
import proofs.«114444_j20624432955428_2_alg».proof.Defs
import proofs.«114444_j20624432955428_2_alg».proof.Proof.Gen.Kernel
import proofs.«114444_j20624432955428_2_alg».proof.Proof.Gen.Kernel.Skeleton
import proofs.«114444_j20624432955428_2_alg».proof.Proof.Gen.Kernel.Launch
import proofs.«114444_j20624432955428_2_alg».proof.Proof.Gen.Kernel.Points
import proofs.«114444_j20624432955428_2_alg».proof.Proof.Gen.Kernel.Frame
import proofs.«114444_j20624432955428_2_alg».proof.Proof.Gen.KernelIdeal
import proofs.«114444_j20624432955428_2_alg».proof.Proof.Gen.KernelIdeal.Skeleton
import proofs.«114444_j20624432955428_2_alg».proof.Proof.Gen.KernelIdeal.Launch
import proofs.«114444_j20624432955428_2_alg».proof.Proof.Gen.KernelIdeal.Points
import proofs.«114444_j20624432955428_2_alg».proof.Proof.Gen.KernelIdeal.Frame
import proofs.«114444_j20624432955428_2_alg».proof.Proof.Gen.KernelIdeal.Value
import proofs.«114444_j20624432955428_2_alg».proof.Proof.Gen.ReferenceIdeal
import proofs.«114444_j20624432955428_2_alg».proof.Proof.Gen.ReferenceIdeal.Run
import proofs.«114444_j20624432955428_2_alg».proof.Proof.Gen.ReferenceIdeal.Read
import proofs.«114444_j20624432955428_2_alg».proof.Proof.Gen.Pre_finite_inputs
import proofs.«114444_j20624432955428_2_alg».proof.Proof.GroupedAffine
import proofs.«114444_j20624432955428_2_alg».proof.Proof.ReferenceRows
import proofs.«114444_j20624432955428_2_alg».proof.Proof.GroupRows
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array and the reference's both end as the grouped product of those
    arguments. -/
theorem algebraic : Cert.algebraic_KernelIdeal_ReferenceIdeal := by
  intro m ρ m' ρ' _ hagree
  refine ⟨fun c => Cert.GroupedAffine.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Rows.reference_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
